-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S1048576 : Shape := ⟨1, ![1048576]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S1048576 : S_.BroadcastsInDim S1048576 (![] : Fin 0 → Fin S1048576.rank)
  reducesTo_S1048576_S_d0 : S1048576.ReducesTo [0] S_

variable [Facts]

def fn {F : FTy → Type} [FloatOps F] (main_arg0 : FVec F S65536x64 .f32) (main_arg1 : FVec F S1048576 .f32) (main_arg2 : IVec S1048576 32) (main_arg3 : IVec S1048576 32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S1048576 .f32 := Host.absf main_arg1
  let main_cst_0 : FVec F S_ .f32 := constant S_ .f32 0x7F800000#32
  let main_v5 : FVec F S1048576 .f32 := broadcastInDim S1048576 ![] bcast_S_S1048576 main_cst_0
  let main_v6 : IVec S1048576 1 := cmpf .olt main_v4 main_v5
  let main_c_1 : IVec S_ 1 := constantI S_ 1 1#1
  let main_v7 : IVec S_ 1 := (fun x v => Host.reduce IntOp.andi x v reducesTo_S1048576_S_d0 h_S_) main_v6 main_c_1
  let main_v8 : IVec S_ 1 := andi main_v3 main_v7
  main_v8
-- ==== Kernel.lean ====
abbrev S65536x64 : Shape := ⟨2, ![65536, 64]⟩
abbrev S1048576 : Shape := ⟨1, ![1048576]⟩
abbrev S8192x64 : Shape := ⟨2, ![8192, 64]⟩
abbrev S8192 : Shape := ⟨1, ![8192]⟩
abbrev S8192x1 : Shape := ⟨2, ![8192, 1]⟩
abbrev S_ : Shape := ⟨0, ![]⟩
abbrev S1048576x1 : Shape := ⟨2, ![1048576, 1]⟩
abbrev S1048576x64 : Shape := ⟨2, ![1048576, 64]⟩

abbrev nBuf : Space → Nat
  | .hbm => 22
  | .vmem => 8
  | .smem => 0
  | _ => 0

abbrev bufTy : (tb : Table) → Fin (tcTables nBuf tb) → BufTy
  | .hbm, ⟨0, _⟩ => ⟨S65536x64, .f32⟩
  | .hbm, ⟨1, _⟩ => ⟨S1048576, .f32⟩
  | .hbm, ⟨2, _⟩ => ⟨S1048576, .i32⟩
  | .hbm, ⟨3, _⟩ => ⟨S1048576, .i32⟩
  | .hbm, ⟨4, _⟩ => ⟨S65536x64, .f32⟩
  | .hbm, ⟨5, _⟩ => ⟨S_, .i32⟩
  | .hbm, ⟨6, _⟩ => ⟨S1048576, .i32⟩
  | .hbm, ⟨7, _⟩ => ⟨S1048576, .i1⟩
  | .hbm, ⟨8, _⟩ => ⟨S_, .i32⟩
  | .hbm, ⟨9, _⟩ => ⟨S1048576, .i32⟩
  | .hbm, ⟨10, _⟩ => ⟨S1048576, .i32⟩
  | .hbm, ⟨11, _⟩ => ⟨S1048576, .i32⟩
  | .hbm, ⟨12, _⟩ => ⟨S1048576x1, .i32⟩
  | .hbm, ⟨13, _⟩ => ⟨S1048576x64, .f32⟩
  | .hbm, ⟨14, _⟩ => ⟨S1048576x1, .f32⟩
  | .hbm, ⟨15, _⟩ => ⟨S1048576x64, .f32⟩
  | .hbm, ⟨16, _⟩ => ⟨S1048576x64, .f32⟩
  | .hbm, ⟨17, _⟩ => ⟨S_, .f32⟩
  | .hbm, ⟨18, _⟩ => ⟨S65536x64, .f32⟩
  | .hbm, ⟨19, _⟩ => ⟨S1048576x1, .i32⟩
  | .hbm, ⟨20, _⟩ => ⟨S65536x64, .f32⟩
  | .hbm, ⟨21, _⟩ => ⟨S65536x64, .f32⟩
  | .local _ .vmem, ⟨0, _⟩ => ⟨S8192x64, .f32⟩
  | .local _ .vmem, ⟨1, _⟩ => ⟨S8192x64, .f32⟩
  | .local _ .vmem, ⟨2, _⟩ => ⟨S8192x64, .f32⟩
  | .local _ .vmem, ⟨3, _⟩ => ⟨S8192x64, .f32⟩
  | .local _ .vmem, ⟨4, _⟩ => ⟨S8192x64, .f32⟩
  | .local _ .vmem, ⟨5, _⟩ => ⟨S8192x64, .f32⟩
  | .local _ .vmem, ⟨6, _⟩ => ⟨S8192x64, .f32⟩
  | .local _ .vmem, ⟨7, _⟩ => ⟨S8192x64, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S8192x64_S8192x64_0_0 : ∀ a, (![0, 0] : Fin 2 → Nat) a + S8192x64.size a ≤ S8192x64.size a
  h_S8192x64 : 0 < S8192x64.numel
  reduces_S8192x64_S8192 : S8192x64.Reduces [1] S8192
  shapeCasts_S8192_S8192x1 : S8192.ShapeCasts S8192x1
  broadcasts_S8192x1_S8192x64 : S8192x1.Broadcasts S8192x64
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x1_S1048576x64_0_1 : S1048576x1.BroadcastsInDim S1048576x64 (![0, 1] : Fin 2 → Fin S1048576x64.rank)
  bcast_S_S65536x64 : S_.BroadcastsInDim S65536x64 (![] : Fin 0 → Fin S65536x64.rank)
  shapeCasts_S8192x64_S8192x64 : S8192x64.ShapeCasts S8192x64
  gather_S65536x64_S1048576x1_S1048576x64_1_0_n_n_0_1_164_wf : GatherDims.WF S65536x64 S1048576x1 S1048576x64 [1] [0] [] [0] [] 1 ![1, 64]
  scatter_S65536x64_S1048576x1_S1048576x64_1_0_0_1_wf : ScatterDims.WF S65536x64 S1048576x1 S1048576x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S65536x64.size a
  hwx0_0 : ∀ i : grid0.Coords, EltTy.bits .f32 = 32 ∨ (Rect.block (s := S65536x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S65536x64.size a
  hwx0_1 : ∀ i : grid0.Coords, EltTy.bits .f32 = 32 ∨ (Rect.block (s := S65536x64) S8192x64.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S65536x64.size a
  hwx1_0 : ∀ i : grid1.Coords, EltTy.bits .f32 = 32 ∨ (Rect.block (s := S65536x64) S8192x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S65536x64.size a
  hwx1_1 : ∀ i : grid1.Coords, EltTy.bits .f32 = 32 ∨ (Rect.block (s := S65536x64) S8192x64.size (cc1_transform_1 i) (hinb1_1 i)).WholeWords (EltTy.packing .f32)

variable [Facts₀]

def gather_S65536x64_S1048576x1_S1048576x64_1_0_n_n_0_1_164 : GatherDims S65536x64 S1048576x1 S1048576x64 where
  offsetDims := [1]
  collapsedSliceDims := [0]
  operandBatchingDims := []
  startIndicesBatchingDims := []
  startIndexMap := [0]
  indexVectorDim := 1
  sliceSizes := ![1, 64]
  wf := gather_S65536x64_S1048576x1_S1048576x64_1_0_n_n_0_1_164_wf
def scatter_S65536x64_S1048576x1_S1048576x64_1_0_0_1 : ScatterDims S65536x64 S1048576x1 S1048576x64 where
  updateWindowDims := [1]
  insertedWindowDims := [0]
  scatterDimsToOperandDims := [0]
  indexVectorDim := 1
  wf := scatter_S65536x64_S1048576x1_S1048576x64_1_0_0_1_wf

abbrev win0_0 : Pipeline.Window sig grid0 :=
  Pipeline.Window.ofSpec (Memref.whole main_arg0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v13) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S8192x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S65536x64 : Shape := ⟨2, ![65536, 64]⟩
abbrev S1048576 : Shape := ⟨1, ![1048576]⟩
abbrev S_ : Shape := ⟨0, ![]⟩
abbrev S65536 : Shape := ⟨1, ![65536]⟩
abbrev S65536x1 : Shape := ⟨2, ![65536, 1]⟩
abbrev S1048576x1 : Shape := ⟨2, ![1048576, 1]⟩
abbrev S1048576x64 : Shape := ⟨2, ![1048576, 64]⟩

abbrev nBuf : Space → Nat
  | .hbm => 88
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S1048576, .f32⟩
  | .hbm, ⟨2, _⟩ => ⟨S1048576, .i32⟩
  | .hbm, ⟨3, _⟩ => ⟨S1048576, .i32⟩
  | .hbm, ⟨4, _⟩ => ⟨S65536x64, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S_, .f32⟩
  | .hbm, ⟨21, _⟩ => ⟨S65536x1, .f32⟩
  | .hbm, ⟨22, _⟩ => ⟨S65536x1, .f32⟩
  | .hbm, ⟨23, _⟩ => ⟨S65536x1, .f32⟩
  | .hbm, ⟨24, _⟩ => ⟨S65536x1, .f32⟩
  | .hbm, ⟨25, _⟩ => ⟨S65536x1, .f32⟩
  | .hbm, ⟨26, _⟩ => ⟨S65536x1, .f32⟩
  | .hbm, ⟨27, _⟩ => ⟨S_, .f32⟩
  | .hbm, ⟨28, _⟩ => ⟨S65536x1, .f32⟩
  | .hbm, ⟨29, _⟩ => ⟨S65536x1, .f32⟩
  | .hbm, ⟨30, _⟩ => ⟨S65536x64, .f32⟩
  | .hbm, ⟨31, _⟩ => ⟨S65536x64, .f32⟩
  | .hbm, ⟨32, _⟩ => ⟨S_, .f32⟩
  | .hbm, ⟨33, _⟩ => ⟨S65536x1, .f32⟩
  | .hbm, ⟨34, _⟩ => ⟨S65536x1, .f32⟩
  | .hbm, ⟨35, _⟩ => ⟨S65536x64, .f32⟩
  | .hbm, ⟨36, _⟩ => ⟨S65536x64, .f32⟩
  | .hbm, ⟨37, _⟩ => ⟨S_, .i32⟩
  | .hbm, ⟨38, _⟩ => ⟨S1048576, .i32⟩
  | .hbm, ⟨39, _⟩ => ⟨S1048576, .i1⟩
  | .hbm, ⟨40, _⟩ => ⟨S_, .i32⟩
  | .hbm, ⟨41, _⟩ => ⟨S1048576, .i32⟩
  | .hbm, ⟨42, _⟩ => ⟨S1048576, .i32⟩
  | .hbm, ⟨43, _⟩ => ⟨S1048576, .i32⟩
  | .hbm, ⟨44, _⟩ => ⟨S1048576x1, .i32⟩
  | .hbm, ⟨45, _⟩ => ⟨S1048576x64, .f32⟩
  | .hbm, ⟨46, _⟩ => ⟨S1048576x1, .f32⟩
  | .hbm, ⟨47, _⟩ => ⟨S1048576x64, .f32⟩
  | .hbm, ⟨48, _⟩ => ⟨S1048576x64, .f32⟩
  | .hbm, ⟨49, _⟩ => ⟨S_, .f32⟩
  | .hbm, ⟨50, _⟩ => ⟨S65536x64, .f32⟩
  | .hbm, ⟨51, _⟩ => ⟨S1048576x1, .i32⟩
  | .hbm, ⟨52, _⟩ => ⟨S65536x64, .f32⟩
  | .hbm, ⟨53, _⟩ => ⟨S65536x64, .f32⟩
  | .hbm, ⟨54, _⟩ => ⟨S_, .f32⟩
  | .hbm, ⟨55, _⟩ => ⟨S65536, .f32⟩
  | .hbm, ⟨56, _⟩ => ⟨S65536x1, .f32⟩
  | .hbm, ⟨57, _⟩ => ⟨S65536x1, .f32⟩
  | .hbm, ⟨58, _⟩ => ⟨S_, .f32⟩
  | .hbm, ⟨59, _⟩ => ⟨S65536x1, .f32⟩
  | .hbm, ⟨60, _⟩ => ⟨S65536x1, .f32⟩
  | .hbm, ⟨61, _⟩ => ⟨S_, .f32⟩
  | .hbm, ⟨62, _⟩ => ⟨S65536x1, .f32⟩
  | .hbm, ⟨63, _⟩ => ⟨S65536x1, .f32⟩
  | .hbm, ⟨64, _⟩ => ⟨S65536x1, .f32⟩
  | .hbm, ⟨65, _⟩ => ⟨S65536x64, .f32⟩
  | .hbm, ⟨66, _⟩ => ⟨S65536x64, .f32⟩
  | .hbm, ⟨67, _⟩ => ⟨S_, .f32⟩
  | .hbm, ⟨68, _⟩ => ⟨S65536x1, .f32⟩
  | .hbm, ⟨69, _⟩ => ⟨S65536x1, .f32⟩
  | .hbm, ⟨70, _⟩ => ⟨S65536x64, .f32⟩
  | .hbm, ⟨71, _⟩ => ⟨S65536x64, .f32⟩
  | .hbm, ⟨72, _⟩ => ⟨S65536x64, .f32⟩
  | .hbm, ⟨73, _⟩ => ⟨S_, .f32⟩
  | .hbm, ⟨74, _⟩ => ⟨S65536, .f32⟩
  | .hbm, ⟨75, _⟩ => ⟨S65536x1, .f32⟩
  | .hbm, ⟨76, _⟩ => ⟨S65536x1, .f32⟩
  | .hbm, ⟨77, _⟩ => ⟨S_, .f32⟩
  | .hbm, ⟨78, _⟩ => ⟨S65536x1, .f32⟩
  | .hbm, ⟨79, _⟩ => ⟨S65536x1, .f32⟩
  | .hbm, ⟨80, _⟩ => ⟨S_, .f32⟩
  | .hbm, ⟨81, _⟩ => ⟨S65536x1, .f32⟩
  | .hbm, ⟨82, _⟩ => ⟨S65536x1, .f32⟩
  | .hbm, ⟨83, _⟩ => ⟨S_, .f32⟩
  | .hbm, ⟨84, _⟩ => ⟨S65536x1, .f32⟩
  | .hbm, ⟨85, _⟩ => ⟨S65536x1, .f32⟩
  | .hbm, ⟨86, _⟩ => ⟨S65536x64, .f32⟩
  | .hbm, ⟨87, _⟩ => ⟨S65536x64, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_cst_2 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_4 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c : Ref sig .tc := ⟨.hbm, 37, rfl⟩
abbrev main_v18 : Ref sig .tc := ⟨.hbm, 38, rfl⟩
abbrev main_v19 : Ref sig .tc := ⟨.hbm, 39, rfl⟩
abbrev main_c_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call2_v0 : Ref sig .tc := ⟨.hbm, 53, rfl⟩
abbrev main_call2_cst : Ref sig .tc := ⟨.hbm, 54, rfl⟩
abbrev main_call2_v1 : Ref sig .tc := ⟨.hbm, 55, rfl⟩
abbrev main_call2_v2 : Ref sig .tc := ⟨.hbm, 56, rfl⟩
abbrev main_v31 : Ref sig .tc := ⟨.hbm, 57, rfl⟩
abbrev main_cst_7 : Ref sig .tc := ⟨.hbm, 58, rfl⟩
abbrev main_v32 : Ref sig .tc := ⟨.hbm, 59, rfl⟩
abbrev main_v33 : Ref sig .tc := ⟨.hbm, 60, rfl⟩
abbrev main_cst_8 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_9 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_call3_v0 : Ref sig .tc := ⟨.hbm, 72, rfl⟩
abbrev main_call3_cst : Ref sig .tc := ⟨.hbm, 73, rfl⟩
abbrev main_call3_v1 : Ref sig .tc := ⟨.hbm, 74, rfl⟩
abbrev main_call3_v2 : Ref sig .tc := ⟨.hbm, 75, rfl⟩
abbrev main_v43 : Ref sig .tc := ⟨.hbm, 76, rfl⟩
abbrev main_cst_10 : Ref sig .tc := ⟨.hbm, 77, rfl⟩
abbrev main_v44 : Ref sig .tc := ⟨.hbm, 78, rfl⟩
abbrev main_v45 : Ref sig .tc := ⟨.hbm, 79, rfl⟩
abbrev main_cst_11 : Ref sig .tc := ⟨.hbm, 80, rfl⟩
abbrev main_v46 : Ref sig .tc := ⟨.hbm, 81, rfl⟩
abbrev main_v47 : Ref sig .tc := ⟨.hbm, 82, rfl⟩
abbrev main_cst_12 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩

abbrev nD : Nat := 1
abbrev τ : Topo := Topo.v7x

variable {F : FTy → Type} [FloatOps F]

class Facts₀ : Prop where
  reducesTo_S65536x64_S65536_d1 : S65536x64.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x64_0_1 : S65536x1.BroadcastsInDim S65536x64 (![0, 1] : Fin 2 → Fin S65536x64.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x1_S1048576x64_0_1 : S1048576x1.BroadcastsInDim S1048576x64 (![0, 1] : Fin 2 → Fin S1048576x64.rank)
  bcast_S_S65536x64 : S_.BroadcastsInDim S65536x64 (![] : Fin 0 → Fin S65536x64.rank)
  gather_S65536x64_S1048576x1_S1048576x64_1_0_n_n_0_1_164_wf : GatherDims.WF S65536x64 S1048576x1 S1048576x64 [1] [0] [] [0] [] 1 ![1, 64]
  scatter_S65536x64_S1048576x1_S1048576x64_1_0_0_1_wf : ScatterDims.WF S65536x64 S1048576x1 S1048576x64 [1] [0] [0] 1

variable [Facts₀]

def gather_S65536x64_S1048576x1_S1048576x64_1_0_n_n_0_1_164 : GatherDims S65536x64 S1048576x1 S1048576x64 where
  offsetDims := [1]
  collapsedSliceDims := [0]
  operandBatchingDims := []
  startIndicesBatchingDims := []
  startIndexMap := [0]
  indexVectorDim := 1
  sliceSizes := ![1, 64]
  wf := gather_S65536x64_S1048576x1_S1048576x64_1_0_n_n_0_1_164_wf
def scatter_S65536x64_S1048576x1_S1048576x64_1_0_0_1 : ScatterDims S65536x64 S1048576x1 S1048576x64 where
  updateWindowDims := [1]
  insertedWindowDims := [0]
  scatterDimsToOperandDims := [0]
  indexVectorDim := 1
  wf := scatter_S65536x64_S1048576x1_S1048576x64_1_0_0_1_wf

class Facts : Prop extends Facts₀ where

variable [Facts]
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.RowMaps.lean ====
/-
  The two row maps of hyperbolic aggregation, written on one row of 64 extended reals.

  The logarithmic map at the origin sends a row `x` to `(artanh s / s) · x`, where `s` is the row's Euclidean
  norm clamped from below by a small positive constant (and multiplied by the square root of the curvature, here
  the float one) and `artanh` is taken of `s` clamped into the open unit interval, as half the difference of two
  `log1p`. One program divides the factor by `s` before it multiplies the row's entry, the other multiplies the
  entry first and divides the product by `s`. The two agree because `s` is never zero: division by a nonzero
  extended real is multiplication by its inverse, and products commute and associate on the extended reals. No
  entry has to be finite for that.

  The exponential map at the origin followed by the projection onto the ball sends a row `u` to
  `v · min 1 (0.996 / max ‖v‖ ε)` with `v = tanh s · u / s`; both programs compute it by the same operations in
  the same order, so it is one function here.
-/
import Idealize.ShloMosaic.PureOps.Ideal.Laws

noncomputable section

namespace Cert.Hyp

open Idealize.ShloMosaic
open scoped BigOperators

/-- The float one is the real one. -/
theorem one_eq : Ideal.ofBits .f32 0x3F800000#32 = 1 := by
  simp [Ideal.ofBits, Ideal.ieee, -EReal.coe_mul]; norm_num

/-- The clamp constant (about 1e-15) is the positive real 9444733 · 2⁻⁷³. -/
theorem eps_eq : Ideal.ofBits .f32 0x26901D7D#32 = (((9444733 : ℝ) * (2 : ℝ) ^ (-73 : ℤ) : ℝ) : EReal) := by
  simp [Ideal.ofBits, Ideal.ieee, -EReal.coe_mul]

/-- The clamp constant is positive. -/
theorem eps_pos : (0 : EReal) < Ideal.ofBits .f32 0x26901D7D#32 := by
  rw [eps_eq]; exact EReal.coe_pos.2 (by positivity)

/-- The sum of a row's squares. -/
def sumSq (row : Fin 64 → EReal) : EReal := ∑ k : Fin 64, row k * row k

/-- The scale of a row from the sum of its squares: the float one times the norm clamped from below. -/
def scale (σ : EReal) : EReal :=
  Ideal.ofBits .f32 0x3F800000#32 * max (Ideal.sqrt σ) (Ideal.ofBits .f32 0x26901D7D#32)

/-- The scale is never zero: it is at least the positive clamp constant. -/
theorem scale_ne_zero (σ : EReal) : scale σ ≠ 0 := by
  unfold scale
  rw [one_eq, one_mul]
  exact (lt_of_lt_of_le eps_pos (le_max_right _ _)).ne'

/-- The scale clamped into the open unit interval. -/
def clip (s : EReal) : EReal :=
  min (Ideal.ofBits .f32 0x3F7FFFFE#32) (max (Ideal.ofBits .f32 0xBF7FFFFE#32) s)

/-- `artanh` of the clamped scale with the negation written as a difference from the float zero. -/
def artanhSub (s : EReal) : EReal :=
  Ideal.ofBits .f32 0x3F000000#32
    * (Ideal.log1p (clip s) - Ideal.log1p (Ideal.ofBits .f32 0x00000000#32 - clip s))

/-- `artanh` of the clamped scale with the negation written as a negation. -/
def artanhNeg (s : EReal) : EReal :=
  Ideal.ofBits .f32 0x3F000000#32 * (Ideal.log1p (clip s) - Ideal.log1p (-(clip s)))

theorem artanhSub_eq (s : EReal) : artanhSub s = artanhNeg s := by
  unfold artanhSub artanhNeg
  rw [Ideal.ofBits_zero_f32, zero_sub]

/-- The logarithmic map's entry with the factor divided first: `(artanh s / s) · x`. -/
def logDivFirst (row : Fin 64 → EReal) (q : Fin 64) : EReal :=
  Ideal.div (artanhSub (scale (sumSq row))) (scale (sumSq row)) * row q

/-- The logarithmic map's entry with the product divided: `(artanh s · x) / s`. -/
def logMulFirst (row : Fin 64 → EReal) (q : Fin 64) : EReal :=
  Ideal.div (artanhNeg (scale (sumSq row)) * row q) (scale (sumSq row))

/-- Dividing by a nonzero extended real commutes with multiplying by another factor. -/
theorem div_mul_comm' {a s x : EReal} (hs : s ≠ 0) : Ideal.div a s * x = Ideal.div (a * x) s := by
  unfold Ideal.div
  rw [if_neg hs, if_neg hs, mul_right_comm]

/-- The two arrangements of the logarithmic map agree on every row. -/
theorem logDivFirst_eq (row : Fin 64 → EReal) (q : Fin 64) : logDivFirst row q = logMulFirst row q := by
  unfold logDivFirst logMulFirst
  rw [artanhSub_eq, div_mul_comm' (scale_ne_zero _)]

/-- The exponential map's entry: `tanh s · u / s`. -/
def expEntry (row : Fin 64 → EReal) (k : Fin 64) : EReal :=
  Ideal.div (Ideal.tanh (scale (sumSq row)) * row k) (scale (sumSq row))

/-- The projection's factor from the sum of squares of the mapped row: `min 1 (0.996 / max ‖v‖ ε)`. -/
def projFactor (σ : EReal) : EReal :=
  min (Ideal.ofBits .f32 0x3F800000#32)
    (Ideal.div (Ideal.ofBits .f32 0x3F7EF9DB#32) (max (Ideal.sqrt σ) (Ideal.ofBits .f32 0x26901D7D#32)))

/-- The exponential map followed by the projection, entry `q` of a row. -/
def expProj (row : Fin 64 → EReal) (q : Fin 64) : EReal :=
  expEntry row q * projFactor (sumSq (expEntry row))

end Cert.Hyp

end
-- ==== Proof.KernelRows.lean ====
/-
  What the two kernel bodies store, read at one entry of their 8192 × 64 block.

  Each body's stored value is a function of the block it loaded. Both bodies first form, for every row of the
  block, the row's scale (the float one times the row's norm clamped from below): a column of 8192 numbers. The
  first body multiplies each entry by its row's logarithmic factor; the second maps each row by the exponential map
  and rescales the mapped row by the projection's factor, which needs the mapped row's own norm. Read at entry
  `(p, q)`, the first is the logarithmic map (factor divided first) of row `p` at `q`, the second the exponential
  map followed by the projection of row `p` at `q`: an entry depends on its own row only.
-/
import proofs.«150140_j31413390803679_1_alg».proof.Proof.Gen.KernelIdeal.Skeleton
import proofs.«150140_j31413390803679_1_alg».proof.Proof.LibLayout
import proofs.«150140_j31413390803679_1_alg».proof.Proof.RowMaps
import Idealize.ShloMosaic.Lib.Pipeline.Value
import Idealize.ShloMosaic.Lib.ValueIdx

noncomputable section

namespace Cert.Hyp.KernelRows

open Idealize.ShloMosaic Idealize.ShloMosaic.ValueIdx Cert.KernelIdeal Cert.KernelIdeal.Gen Cert.Attn.Layout
open scoped BigOperators

/-- The column of row scales of a block: per row, the float one times the clamped norm. -/
def blockScale (y : FVec Ideal S8192x64 .f32) : FVec Ideal S8192x1 .f32 :=
  mulf (broadcast S8192x1 (Scalar.ofBits .f32 0x3F800000#32))
    (maximumf
      (sqrt (shapeCast S8192x1
        (multiReduction .add [1] S8192 (mulf y y) 0x00000000#32 reduces_S8192x64_S8192 (.inl rfl) rfl)
        shapeCasts_S8192_S8192x1))
      (broadcast S8192x1 (Scalar.ofBits .f32 0x26901D7D#32)))

/-- Row `p` of the column of scales is the scale of the sum of squares of row `p`. -/
theorem blockScale_apply (y : FVec Ideal S8192x64 .f32) (p : Fin 8192) (u : Fin 1) :
    blockScale y (ix2 p u) = scale (sumSq fun k => y (ix2 p k)) := by
  show Ideal.ofBits .f32 0x3F800000#32
      * max (Ideal.sqrt (shapeCast S8192x1 _ shapeCasts_S8192_S8192x1 (ix2 p u))) (Ideal.ofBits .f32 0x26901D7D#32) = _
  unfold scale
  refine congrArg (fun z => Ideal.ofBits .f32 0x3F800000#32 * max (Ideal.sqrt z) (Ideal.ofBits .f32 0x26901D7D#32)) ?_
  exact (shapeCast_a_a1_apply _ _ p u).trans (rowSum_apply (mulf y y) _ _ _ p)

/-- The column of logarithmic factors from the column of scales: `artanh s / s`, pointwise. -/
def logFactorCol (s : FVec Ideal S8192x1 .f32) : FVec Ideal S8192x1 .f32 :=
  divf
    (mulf (broadcast S8192x1 (Scalar.ofBits .f32 0x3F000000#32))
      (subf
        (log1p (minimumf (broadcast S8192x1 (Scalar.ofBits .f32 0x3F7FFFFE#32))
          (maximumf (broadcast S8192x1 (Scalar.ofBits .f32 0xBF7FFFFE#32)) s)))
        (log1p (subf (broadcast S8192x1 (Scalar.ofBits .f32 0x00000000#32))
          (minimumf (broadcast S8192x1 (Scalar.ofBits .f32 0x3F7FFFFE#32))
            (maximumf (broadcast S8192x1 (Scalar.ofBits .f32 0xBF7FFFFE#32)) s))))))
    s

theorem logFactorCol_apply (s : FVec Ideal S8192x1 .f32) (i : S8192x1.Idx) :
    logFactorCol s i = Ideal.div (artanhSub (s i)) (s i) := rfl

/-- The first body's stored value: each entry times its row's logarithmic factor. -/
theorem pay0_eq (x0 : FVec Ideal S8192x64 .f32) :
    k0_pay1 (F := Ideal) x0
      = mulf (broadcastTo S8192x64 (logFactorCol (blockScale x0)) broadcasts_S8192x1_S8192x64) x0 := rfl

/-- The first body's stored value at `(p, q)` is the logarithmic map of row `p` at `q`. -/
theorem pay0_apply (x0 : FVec Ideal S8192x64 .f32) (p : Fin 8192) (q : Fin 64) :
    k0_pay1 (F := Ideal) x0 (ix2 p q) = logDivFirst (fun k => x0 (ix2 p k)) q := by
  rw [pay0_eq]
  unfold logDivFirst
  show broadcastTo S8192x64 (logFactorCol (blockScale x0)) broadcasts_S8192x1_S8192x64 (ix2 p q) * x0 (ix2 p q)
    = _ * x0 (ix2 p q)
  refine congrArg (· * x0 (ix2 p q)) ?_
  refine (broadcastTo_a1_ab_apply _ _ p q).trans ?_
  rw [logFactorCol_apply, blockScale_apply]

/-- The exponential map of every row of a block: `tanh s · u / s` with `s` the row's scale. -/
def blockExp (y : FVec Ideal S8192x64 .f32) : FVec Ideal S8192x64 .f32 :=
  divf (mulf (broadcastTo S8192x64 (tanh (blockScale y)) broadcasts_S8192x1_S8192x64) y)
    (broadcastTo S8192x64 (blockScale y) broadcasts_S8192x1_S8192x64)

theorem blockExp_apply (y : FVec Ideal S8192x64 .f32) (p : Fin 8192) (k : Fin 64) :
    blockExp y (ix2 p k) = expEntry (fun k => y (ix2 p k)) k := by
  unfold expEntry
  show Ideal.div (broadcastTo S8192x64 (tanh (blockScale y)) broadcasts_S8192x1_S8192x64 (ix2 p k) * y (ix2 p k))
      (broadcastTo S8192x64 (blockScale y) broadcasts_S8192x1_S8192x64 (ix2 p k)) = _
  rw [broadcastTo_a1_ab_apply, broadcastTo_a1_ab_apply]
  show Ideal.div (Ideal.tanh (blockScale y (ix2 p 0)) * y (ix2 p k)) (blockScale y (ix2 p 0)) = _
  rw [blockScale_apply]

/-- The column of projection factors of a block of mapped rows. -/
def projCol (v : FVec Ideal S8192x64 .f32) : FVec Ideal S8192x1 .f32 :=
  minimumf (broadcast S8192x1 (Scalar.ofBits .f32 0x3F800000#32))
    (divf (broadcast S8192x1 (Scalar.ofBits .f32 0x3F7EF9DB#32))
      (maximumf
        (sqrt (shapeCast S8192x1
          (multiReduction .add [1] S8192 (mulf v v) 0x00000000#32 reduces_S8192x64_S8192 (.inl rfl) rfl)
          shapeCasts_S8192_S8192x1))
        (broadcast S8192x1 (Scalar.ofBits .f32 0x26901D7D#32))))

theorem projCol_apply (v : FVec Ideal S8192x64 .f32) (p : Fin 8192) (u : Fin 1) :
    projCol v (ix2 p u) = projFactor (sumSq fun k => v (ix2 p k)) := by
  show min (Ideal.ofBits .f32 0x3F800000#32)
      (Ideal.div (Ideal.ofBits .f32 0x3F7EF9DB#32)
        (max (Ideal.sqrt (shapeCast S8192x1 _ shapeCasts_S8192_S8192x1 (ix2 p u))) (Ideal.ofBits .f32 0x26901D7D#32))) = _
  unfold projFactor
  refine congrArg (fun z => min (Ideal.ofBits .f32 0x3F800000#32)
      (Ideal.div (Ideal.ofBits .f32 0x3F7EF9DB#32) (max (Ideal.sqrt z) (Ideal.ofBits .f32 0x26901D7D#32)))) ?_
  exact (shapeCast_a_a1_apply _ _ p u).trans (rowSum_apply (mulf v v) _ _ _ p)

/-- The second body's stored value: the mapped rows, each rescaled by its projection factor. -/
theorem pay1_eq (x0 : FVec Ideal S8192x64 .f32) :
    k1_pay1 (F := Ideal) x0
      = mulf (blockExp (shapeCast S8192x64 x0 shapeCasts_S8192x64_S8192x64))
          (broadcastTo S8192x64 (projCol (blockExp (shapeCast S8192x64 x0 shapeCasts_S8192x64_S8192x64)))
            broadcasts_S8192x1_S8192x64) := rfl

/-- The second body's stored value at `(p, q)` is the exponential map followed by the projection of row `p` at `q`. -/
theorem pay1_apply (x0 : FVec Ideal S8192x64 .f32) (p : Fin 8192) (q : Fin 64) :
    k1_pay1 (F := Ideal) x0 (ix2 p q) = expProj (fun k => x0 (ix2 p k)) q := by
  rw [pay1_eq, shapeCast_self]
  unfold expProj
  show blockExp x0 (ix2 p q) * broadcastTo S8192x64 (projCol (blockExp x0)) broadcasts_S8192x1_S8192x64 (ix2 p q) = _
  rw [broadcastTo_a1_ab_apply, projCol_apply, blockExp_apply]
  refine congrArg (fun f => expEntry (fun k => x0 (ix2 p k)) q * projFactor (sumSq f)) ?_
  funext k
  exact blockExp_apply x0 p k

end Cert.Hyp.KernelRows

end
-- ==== Proof.Arrays.lean ====
/-
  The two row maps applied to every row of a 65536 × 64 array: the whole-array functions both programs are
  compared through. Entry `(r, q)` of the result depends on row `r` of the operand only.
-/
import proofs.«150140_j31413390803679_1_alg».proof.Proof.RowMaps
import Idealize.ShloMosaic.Lib.ValueIdx

noncomputable section

namespace Cert.Hyp

open Idealize.ShloMosaic Idealize.ShloMosaic.ValueIdx

/-- A 65536 × 64 array of extended reals. -/
abbrev Arr : Type := (⟨2, ![65536, 64]⟩ : Shape).Idx → EReal

/-- Row `r` of an array. -/
def rowOf (x : Arr) (r : Fin 65536) : Fin 64 → EReal := fun k => x (ix2 r k)

/-- The logarithmic map at the origin of every row (the factor divided first). -/
def logArr (x : Arr) : Arr := fun i => logDivFirst (rowOf x (i 0)) (i 1)

/-- The exponential map at the origin followed by the projection, of every row. -/
def expArr (u : Arr) : Arr := fun i => expProj (rowOf u (i 0)) (i 1)

theorem logArr_ix2 (x : Arr) (r : Fin 65536) (q : Fin 64) : logArr x (ix2 r q) = logDivFirst (rowOf x r) q := rfl

theorem expArr_ix2 (u : Arr) (r : Fin 65536) (q : Fin 64) : expArr u (ix2 r q) = expProj (rowOf u r) q := rfl

/-- An array function is determined by its entries at coordinates. -/
theorem arr_ext {f g : Arr} (h : ∀ (r : Fin 65536) (q : Fin 64), f (ix2 r q) = g (ix2 r q)) : f = g := by
  funext i
  obtain ⟨r, q, rfl⟩ : ∃ (r : Fin 65536) (q : Fin 64), i = ix2 r q := ⟨i 0, i 1, eq_ix2 i⟩
  exact h r q

end Cert.Hyp

end
-- ==== Proof.KernelArrays.lean ====
/-
  From blocks to arrays: what each of the kernel program's two regions leaves in its output array, whatever the
  buffers hold when the region is entered.

  Each region walks its 65536 × 64 input in 8 blocks of 8192 rows; at step `t` it loads rows
  `8192·t … 8192·t + 8191`, applies the body, and writes the result back to the same rows of the output. A stored
  entry depends on its own row of the loaded block only, and that row is a row of the input array, so what step `t`
  writes back is block `t` of ONE whole-array function of the input: the logarithmic map of every row for the first
  region, the exponential map followed by the projection of every row for the second. The 8 blocks tile the output,
  so the output array ends holding that function of the input array.
-/
import proofs.«150140_j31413390803679_1_alg».proof.Proof.Gen.KernelIdeal.Frame
import proofs.«150140_j31413390803679_1_alg».proof.Proof.KernelRows
import proofs.«150140_j31413390803679_1_alg».proof.Proof.Arrays
import Idealize.ShloMosaic.Lib.Pipeline.Value

noncomputable section

namespace Cert.Hyp.KernelArrays

open Idealize.ShloMosaic Idealize.ShloMosaic.TcCoe Idealize.SL.Sem Idealize.ShloMosaic.ValueIdx
open Idealize.ShloMosaic.Pipeline (Dat)
open Cert.KernelIdeal Cert.KernelIdeal.Gen Cert.Hyp.KernelRows

theorem hz : (![0, 0] : Fin 2 → Nat) = fun _ => 0 := funext fun a => by fin_cases a <;> rfl

/-! ## One block, over plain variables -/

/-- If a block holds rows `8192·t …` of an array, the first body's stored value at `(p, q)` is the logarithmic map
    of the array at `(8192·t + p, q)`. -/
theorem block_log (x : Arr) (b : FVec Ideal S8192x64 .f32) (t : Nat) (ht : t < 8)
    (hb : ∀ (p : Fin 8192) (k : Fin 64), b (ix2 p k) = x (ix2 ⟨t * 8192 + p.val, by omega⟩ k))
    (j : S8192x64.Idx) (i : (⟨2, ![65536, 64]⟩ : Shape).Idx)
    (h0 : (i 0).val = t * 8192 + (j 0).val) (h1 : (i 1).val = (j 1).val) :
    k0_pay1 (F := Ideal) b j = logArr x i := by
  obtain ⟨p, q, rfl⟩ : ∃ (p : Fin 8192) (q : Fin 64), j = ix2 p q := ⟨j 0, j 1, eq_ix2 j⟩
  have hlt : t * 8192 + p.val < 65536 := by have := p.isLt; omega
  have e : i = ix2 ⟨t * 8192 + p.val, hlt⟩ q :=
    funext fun a => Fin.ext (by match a with | ⟨0, _⟩ => exact h0 | ⟨1, _⟩ => exact h1)
  rw [e, pay0_apply, logArr_ix2]
  exact congrArg (logDivFirst · q) (funext fun k => hb p k)

/-- The same for the second body: the exponential map followed by the projection. -/
theorem block_exp (x : Arr) (b : FVec Ideal S8192x64 .f32) (t : Nat) (ht : t < 8)
    (hb : ∀ (p : Fin 8192) (k : Fin 64), b (ix2 p k) = x (ix2 ⟨t * 8192 + p.val, by omega⟩ k))
    (j : S8192x64.Idx) (i : (⟨2, ![65536, 64]⟩ : Shape).Idx)
    (h0 : (i 0).val = t * 8192 + (j 0).val) (h1 : (i 1).val = (j 1).val) :
    k1_pay1 (F := Ideal) b j = expArr x i := by
  obtain ⟨p, q, rfl⟩ : ∃ (p : Fin 8192) (q : Fin 64), j = ix2 p q := ⟨j 0, j 1, eq_ix2 j⟩
  have hlt : t * 8192 + p.val < 65536 := by have := p.isLt; omega
  have e : i = ix2 ⟨t * 8192 + p.val, hlt⟩ q :=
    funext fun a => Fin.ext (by match a with | ⟨0, _⟩ => exact h0 | ⟨1, _⟩ => exact h1)
  rw [e, pay1_apply, expArr_ix2]
  exact congrArg (expProj · q) (funext fun k => hb p k)

variable (V : (c : Dev nD) → (b : Ref sig .tc) → Buf (Elt Ideal) ((c : Thread nD τ).loc b))

/-! ## Region 0: the logarithmic map -/

/-- Both windows of region 0 sit, at step `t`, at block row `t` and block column 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What step `t` writes back is block `t` of the logarithmic map of the input array as the region finds it. -/
theorem flushed0_eq (c : Dev nD) (t : Fin cfg0.N) :
    (dat0 V c).flushed 1 t = ((cfg0.win 1).blk t).view.read (Elt Ideal) (logArr (V c main_arg0)) := by
  show (cfg0.win 1).cut (grid0.coords t) ((dat0 V c).after 1 t) = _
  rw [after0_1]
  unfold out0_1
  rw [View.canon_unit_zero hz]
  simp only [View.ld_unit_zero (S := S8192x64) hz]
  obtain ⟨e0, e1, e2, e3⟩ := idx_facts0 t
  have ht : t.val < 8 := lt_of_lt_of_eq t.isLt (N_0 : cfg0.N = 8)
  funext j
  refine block_log (V c main_arg0) (iblk0 V c 0 t) t.val ht (fun p k => ?_) j _ ?_ ?_
  · unfold iblk0
    rw [View.read_apply]
    show V c main_arg0 (((cfg0.win 0).blk t).view.emb (ix2 p k)) = _
    refine congrArg (V c main_arg0) (funext fun a => Fin.ext ?_)
    match a with
    | ⟨0, _⟩ => show win0_0.index t (0 : Fin 2) * 8192 + 1 * p.val = t.val * 8192 + p.val; rw [e0]; omega
    | ⟨1, _⟩ => show win0_0.index t (1 : Fin 2) * 64 + 1 * k.val = k.val; rw [e1]; omega
  · show win0_1.index t (0 : Fin 2) * 8192 + 1 * (j 0).val = t.val * 8192 + (j 0).val; rw [e2]; omega
  · show win0_1.index t (1 : Fin 2) * 64 + 1 * (j 1).val = (j 1).val; rw [e3]; omega

/-- An index of the output array is in step `t`'s block iff each coordinate is in the block's range. -/
theorem mem_blk0 (t : Fin cfg0.N) (i : S65536x64.Idx) :
    i ∈ ((cfg0.win 1).blk t).view.set ↔ ∀ a : Fin 2, win0_1.index t a * S8192x64.size a ≤ (i a).val
      ∧ (i a).val < win0_1.index t a * S8192x64.size a + S8192x64.size a := by
  show i ∈ ((View.whole main_v0).slice (win0_1.rect t)).set ↔ _
  rw [View.set_slice_whole, Rect.mem_set_unit]
  exact Iff.rfl

/-- Every index of the output array is in the block of the step its row falls in. -/
theorem cover0 (i : S65536x64.Idx) :
    ∃ t : Fin cfg0.N, (cfg0.win 1).flush t = true ∧ i ∈ ((cfg0.win 1).blk t).view.set := by
  have hi0 : (i 0).val < 65536 := (i 0).isLt
  have hi1 : (i 1).val < 64 := (i 1).isLt
  have hN : cfg0.N = 8 := N_0
  refine ⟨⟨(i 0).val / 8192, by rw [hN]; omega⟩, flush0_1 _, ?_⟩
  rw [mem_blk0]
  obtain ⟨e0, e1, e2, e3⟩ := idx_facts0 ⟨(i 0).val / 8192, by rw [hN]; omega⟩
  intro a
  match a with
  | ⟨0, _⟩ =>
    show win0_1.index _ (0 : Fin 2) * 8192 ≤ (i 0).val ∧ (i 0).val < win0_1.index _ (0 : Fin 2) * 8192 + 8192
    rw [e2]; show (i 0).val / 8192 * 8192 ≤ (i 0).val ∧ (i 0).val < (i 0).val / 8192 * 8192 + 8192; omega
  | ⟨1, _⟩ =>
    show win0_1.index _ (1 : Fin 2) * 64 ≤ (i 1).val ∧ (i 1).val < win0_1.index _ (1 : Fin 2) * 64 + 64
    rw [e3]; omega

/-- Region 0's output array ends holding the logarithmic map of every row of its input array. -/
theorem final0 (c : Dev nD) : (dat0 V c).arrAt 1 cfg0.N = logArr (V c main_arg0) :=
  (dat0 V c).arrAt_eq_of_cover 1 (logArr (V c main_arg0)) (fun t _ => flushed0_eq V c t) cover0

/-! ## Region 1: the exponential map and the projection -/

/-- Both windows of region 1 sit, at step `t`, at block row `t` and block column 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- What step `t` writes back is block `t` of the exponential map and projection of the input array as the region
    finds it. -/
theorem flushed1_eq (c : Dev nD) (t : Fin cfg1.N) :
    (dat1 V c).flushed 1 t = ((cfg1.win 1).blk t).view.read (Elt Ideal) (expArr (V c main_v13)) := by
  show (cfg1.win 1).cut (grid1.coords t) ((dat1 V c).after 1 t) = _
  rw [after1_1]
  unfold out1_1
  rw [View.canon_unit_zero hz]
  simp only [View.ld_unit_zero (S := S8192x64) hz]
  obtain ⟨e0, e1, e2, e3⟩ := idx_facts1 t
  have ht : t.val < 8 := lt_of_lt_of_eq t.isLt (N_1 : cfg1.N = 8)
  funext j
  refine block_exp (V c main_v13) (iblk1 V c 0 t) t.val ht (fun p k => ?_) j _ ?_ ?_
  · unfold iblk1
    rw [View.read_apply]
    show V c main_v13 (((cfg1.win 0).blk t).view.emb (ix2 p k)) = _
    refine congrArg (V c main_v13) (funext fun a => Fin.ext ?_)
    match a with
    | ⟨0, _⟩ => show win1_0.index t (0 : Fin 2) * 8192 + 1 * p.val = t.val * 8192 + p.val; rw [e0]; omega
    | ⟨1, _⟩ => show win1_0.index t (1 : Fin 2) * 64 + 1 * k.val = k.val; rw [e1]; omega
  · show win1_1.index t (0 : Fin 2) * 8192 + 1 * (j 0).val = t.val * 8192 + (j 0).val; rw [e2]; omega
  · show win1_1.index t (1 : Fin 2) * 64 + 1 * (j 1).val = (j 1).val; rw [e3]; omega

theorem mem_blk1 (t : Fin cfg1.N) (i : S65536x64.Idx) :
    i ∈ ((cfg1.win 1).blk t).view.set ↔ ∀ a : Fin 2, win1_1.index t a * S8192x64.size a ≤ (i a).val
      ∧ (i a).val < win1_1.index t a * S8192x64.size a + S8192x64.size a := by
  show i ∈ ((View.whole main_v14).slice (win1_1.rect t)).set ↔ _
  rw [View.set_slice_whole, Rect.mem_set_unit]
  exact Iff.rfl

theorem cover1 (i : S65536x64.Idx) :
    ∃ t : Fin cfg1.N, (cfg1.win 1).flush t = true ∧ i ∈ ((cfg1.win 1).blk t).view.set := by
  have hi0 : (i 0).val < 65536 := (i 0).isLt
  have hi1 : (i 1).val < 64 := (i 1).isLt
  have hN : cfg1.N = 8 := N_1
  refine ⟨⟨(i 0).val / 8192, by rw [hN]; omega⟩, flush1_1 _, ?_⟩
  rw [mem_blk1]
  obtain ⟨e0, e1, e2, e3⟩ := idx_facts1 ⟨(i 0).val / 8192, by rw [hN]; omega⟩
  intro a
  match a with
  | ⟨0, _⟩ =>
    show win1_1.index _ (0 : Fin 2) * 8192 ≤ (i 0).val ∧ (i 0).val < win1_1.index _ (0 : Fin 2) * 8192 + 8192
    rw [e2]; show (i 0).val / 8192 * 8192 ≤ (i 0).val ∧ (i 0).val < (i 0).val / 8192 * 8192 + 8192; omega
  | ⟨1, _⟩ =>
    show win1_1.index _ (1 : Fin 2) * 64 ≤ (i 1).val ∧ (i 1).val < win1_1.index _ (1 : Fin 2) * 64 + 64
    rw [e3]; omega

/-- Region 1's output array ends holding the exponential map and projection of every row of its input array. -/
theorem final1 (c : Dev nD) : (dat1 V c).arrAt 1 cfg1.N = expArr (V c main_v13) :=
  (dat1 V c).arrAt_eq_of_cover 1 (expArr (V c main_v13)) (fun t _ => flushed1_eq V c t) cover1

end Cert.Hyp.KernelArrays

end
-- ==== Proof.KernelRun.lean ====
/-
  The kernel program's run, with its result read.

  The program is: region 0 (the logarithmic map, into a fresh array), a stretch of host operations (a gather of
  rows of that array, a multiplication by the edge weights, an accumulating scatter into zeros), and region 1 (the
  exponential map and projection of the scatter's result, into the result array). Every weakly fair execution
  ends, and the result array then holds: the exponential map and projection of every row of the stretch's function
  of the logarithmic map of every row of the first argument. The stretch is kept as one function `mid` of the
  array it reads and of the other three arguments; it is never opened.
-/
import proofs.«150140_j31413390803679_1_alg».proof.Proof.Gen.KernelIdeal.Frame
import proofs.«150140_j31413390803679_1_alg».proof.Proof.KernelArrays
import Idealize.ShloMosaic.Lib.StableHlo.Run

set_option maxRecDepth 16384

noncomputable section

namespace Cert.Hyp.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Hyp.KernelArrays

/-- A 65536 × 64 float array as the kernel program's buffers hold it. -/
abbrev KArr : Type := (⟨S65536x64, .f32⟩ : BufTy).Contents (Elt Ideal)

/-- The host stretch between the two regions as one function: rows of `xt` gathered at the (wrapped) column
    indices `x3`, times the edge weights `x1`, scattered by addition at the row indices `x2` into zeros. -/
def mid (xt : KArr) (x1 : (⟨S1048576, .f32⟩ : BufTy).Contents (Elt Ideal))
    (x2 x3 : (⟨S1048576, .i32⟩ : BufTy).Contents (Elt Ideal)) : KArr :=
  Host.scatterAdd (F := Ideal) (φ := .f32) scatter_S65536x64_S1048576x1_S1048576x64_1_0_0_1
    (broadcastInDim S65536x64 ![] bcast_S_S65536x64 (constant (F := Ideal) S_ .f32 0x00000000#32))
    (broadcastInDim S1048576x1 ![0] bcast_S1048576_S1048576x1_0 x2)
    (mulf (F := Ideal) (φ := .f32)
      (Host.gather (α := Ideal .f32) gather_S65536x64_S1048576x1_S1048576x64_1_0_n_n_0_1_164 xt
        (broadcastInDim S1048576x1 ![0] bcast_S1048576_S1048576x1_0
          (select (cmpi .slt x3 (broadcastInDim S1048576 ![] bcast_S_S1048576 (constantI S_ 32 0#32)))
            (addi x3 (broadcastInDim S1048576 ![] bcast_S_S1048576 (constantI S_ 32 65536#32))) x3)))
      (broadcastInDim S1048576x64 ![0, 1] bcast_S1048576x1_S1048576x64_0_1
        (broadcastInDim S1048576x1 ![0] bcast_S1048576_S1048576x1_0 x1)))

/-- After the host stretch, from any buffer contents, the scatter's result buffer holds `mid` of what the
    stretch reads. -/
theorem mid_after (W : Valuation τ sig (Elt Ideal)) :
    StableHlo.after (hostOps1 (F := Ideal)) W (Proc.devRef .tc main_v13)
      = mid (W (Proc.devRef .tc main_v0)) (W (Proc.devRef .tc main_arg1)) (W (Proc.devRef .tc main_arg2))
          (W (Proc.devRef .tc main_arg3)) := by
  after_results
  rfl

variable (m : (ℓ : Loc nD τ sig) → Buf (Elt Ideal) ℓ) (ρ : Dev nD → PrngReg)

/-- What the result buffer holds at the end of the run, as a function of the launch memory. -/
def result (c : Dev nD) : KArr :=
  expArr (mid (logArr (m ((c : Thread nD τ).loc main_arg0))) (m ((c : Thread nD τ).loc main_arg1))
    (m ((c : Thread nD τ).loc main_arg2)) (m ((c : Thread nD τ).loc main_arg3)))

/-- The last boundary's contents at the result buffer: region 1's output array, which is the exponential map and
    projection of what region 1 found in its input array — the stretch's result from region 0's exit contents,
    where region 0's output array is the logarithmic map of the first argument and the other arguments are as
    launched. -/
theorem W3_result (c : Dev nD) : W3 m ρ c (Proc.devRef .tc main_v14) = result m c := by
  have h3 : W3 m ρ c (Proc.devRef .tc main_v14) = (dat1 (V2 m ρ) c).arrAt 1 cfg1.N := W3_arr m ρ c 1
  rw [h3, final1]
  unfold result
  refine congrArg expArr ?_
  show StableHlo.after (hostOps1 (F := Ideal)) (W1 m ρ c) (Proc.devRef .tc main_v13) = _
  rw [mid_after]
  have h1 : W1 m ρ c (Proc.devRef .tc main_v0) = logArr (m ((c : Thread nD τ).loc main_arg0)) :=
    (W1_arr m ρ c 1).trans (final0 (V0 m ρ) c)
  rw [h1, W1_of_ne m ρ c main_arg1 (by decide), W1_of_ne m ρ c main_arg2 (by decide),
    W1_of_ne m ρ c main_arg3 (by decide)]

-- the launch theorem's implicit arguments are found by unifying its conclusion with this one, which takes unfolding
-- plain definitions in a metavariable's type
set_option backward.isDefEq.respectTransparency.types false in
/-- The frame run with the result buffer read too: every weakly fair execution of the program terminates,
    nothing faulting, the result buffer at the last boundary's contents and the arguments as launched. -/
theorem run_boundary : θ_run defs (onTc (τ := τ) (main (F := Ideal))) ⟨m, fun _ => 0, ρ⟩ (fun r => ∀ c : Dev nD,
      r.2.mem ((c.tc : Thread nD τ).loc main_v14) = W3 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v14 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

/-- The run, read: the result buffer ends at `result`, the arguments as launched. -/
theorem run : θ_run defs (onTc (τ := τ) (main (F := Ideal))) ⟨m, fun _ => 0, ρ⟩ (fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (W3_result m ρ c), (h c).2⟩) (run_boundary m ρ)

end Cert.Hyp.KernelRun

end
-- ==== Proof.RefRows.lean ====
/-
  The reference program read at one entry, stage by stage.

  The reference is one chain of whole-array host operations. Read at entry `(r, q)`: the first seventeen values are
  the logarithmic map of row `r` of the input (the product divided), the values from the scatter's result to the end
  are the exponential map followed by the projection of row `r` of the scatter's result, and in between stand a
  gather of rows, a multiplication by the edge weights and an accumulating scatter, which are not opened: they are
  the same operations in the other program, so only the array going into them matters.
-/
import proofs.«150140_j31413390803679_1_alg».proof.Proof.Gen.ReferenceIdeal.Read
import proofs.«150140_j31413390803679_1_alg».proof.Proof.Arrays

noncomputable section

namespace Cert.Hyp.RefRows

open Idealize.ShloMosaic Idealize.ShloMosaic.ValueIdx
open Cert.ReferenceIdeal Cert.ReferenceIdeal.Gen Cert.ReferenceIdeal.Read
open scoped BigOperators

/-- A 65536 × 64 float array as the reference's buffers hold it. -/
abbrev RArr : Type := (⟨S65536x64, .f32⟩ : BufTy).Contents (Elt Ideal)

/-! ## Index equations: where each layout operation of the reference reads its operand -/

theorem idx_sum (r : Fin 65536) (u : Fin 1) (k : Fin 64) :
    idx_main_call0_v1 (idx_main_call0_v2 (ix2 r u)) k = ix2 r k :=
  funext fun a => Fin.ext (by match a with | ⟨0, _⟩ => rfl | ⟨1, _⟩ => rfl)

theorem idx_col (r : Fin 65536) (q : Fin 64) : idx_main_v12 (ix2 r q) = ix2 r (0 : Fin 1) :=
  funext fun a => Fin.ext (by match a with | ⟨0, _⟩ => rfl | ⟨1, _⟩ => rfl)

/-! ## The clamped norm and the scale of a row, for any array -/

/-- The reference's clamped row norm, read at row `r`. -/
theorem normClamp_apply (y : RArr) (r : Fin 65536) (u : Fin 1) :
    val_main_v2 (F := Ideal) y (ix2 r u)
      = max (Ideal.sqrt (sumSq fun k => y (ix2 r k))) (Ideal.ofBits .f32 0x26901D7D#32) := by
  rw [val_main_v2_apply, val_main_v0_apply, val_main_call0_v2_apply, val_main_call0_v1_apply,
    val_main_call0_cst_apply, val_main_v1_apply, val_main_cst_apply]
  simp only [val_main_call0_v0_apply, Ideal.ofBits_def, Ideal.mulf_def, Ideal.maximumf_def,
    Ideal.hostUnary_sqrt_def, Ideal.ofBits_zero_f32, zero_add, idx_sum]
  rfl

/-- The reference's row scale, read at row `r`. -/
theorem scale_apply (y : RArr) (r : Fin 65536) (u : Fin 1) :
    val_main_v4 (F := Ideal) y (ix2 r u) = scale (sumSq fun k => y (ix2 r k)) := by
  rw [val_main_v4_apply, val_main_v3_apply, val_main_cst_0_apply, normClamp_apply]
  rfl

/-! ## The logarithmic map: the first seventeen values -/

/-- The reference's half-log-ratio column, read at row `r`: `artanh` of the clamped scale. -/
theorem artanh_apply (x0 : RArr) (r : Fin 65536) (u : Fin 1) :
    val_main_v11 (F := Ideal) x0 (ix2 r u) = artanhNeg (val_main_v4 (F := Ideal) x0 (ix2 r u)) := by
  rw [val_main_v11_apply, val_main_v10_apply, val_main_cst_3_apply, val_main_v9_apply, val_main_v6_apply,
    val_main_v8_apply, val_main_v7_apply, val_main_v5_apply, val_main_call1_v4_apply, val_main_call1_v3_apply,
    val_main_cst_2_apply, val_main_call1_v2_apply, val_main_call1_v1_apply, val_main_call1_v0_apply,
    val_main_cst_1_apply]
  generalize val_main_v4 (F := Ideal) x0 (ix2 r u) = s
  simp only [Ideal.ofBits_def, Ideal.mulf_def, Ideal.subf_def, Ideal.hostUnary_log1p_def, Ideal.minimumf_def,
    Ideal.maximumf_def, Ideal.hostNegf_def, Ideal.negf_def]
  rfl

/-- The reference's seventeenth value at `(r, q)`: the logarithmic map of row `r`, the product divided. -/
theorem log_apply (x0 : RArr) (r : Fin 65536) (q : Fin 64) :
    val_main_v17 (F := Ideal) x0 (ix2 r q) = logMulFirst (rowOf x0 r) q := by
  rw [val_main_v17_apply, val_main_v13_apply, val_main_v12_apply, val_main_v16_apply]
  rw [show idx_main_v16 (ix2 r q) = ix2 r (0 : Fin 1) from idx_col r q, idx_col r q, artanh_apply]
  rw [show val_main_v15 (F := Ideal) x0 = val_main_v4 (F := Ideal) x0 from rfl, scale_apply]
  unfold logMulFirst rowOf
  simp only [Ideal.hostDivf_def, Ideal.mulf_def]

/-- So the seventeenth value is the logarithmic map of every row (in the arrangement that divides the factor
    first, which is the same function). -/
theorem log_eq (x0 : RArr) : val_main_v17 (F := Ideal) x0 = logArr x0 :=
  arr_ext fun r q => (log_apply x0 r q).trans ((logDivFirst_eq (rowOf x0 r) q).symm.trans (logArr_ix2 x0 r q).symm)

/-! ## The middle: gather, weights, accumulating scatter, as one function of the array going in -/

/-- The reference's gather of rows at the (wrapped) column indices, times the edge weights, scattered by
    addition at the row indices into zeros: as a function of the array gathered from. -/
def mid (xt : RArr) (x1 : (⟨S1048576, .f32⟩ : BufTy).Contents (Elt Ideal))
    (x2 x3 : (⟨S1048576, .i32⟩ : BufTy).Contents (Elt Ideal)) : RArr :=
  Host.scatterAdd (F := Ideal) (φ := .f32) scatter_S65536x64_S1048576x1_S1048576x64_1_0_0_1 (val_main_v28 (F := Ideal))
    (val_main_v29 (F := Ideal) x2)
    (mulf (F := Ideal) (φ := .f32) (Host.gather (α := Ideal .f32) gather_S65536x64_S1048576x1_S1048576x64_1_0_n_n_0_1_164 xt (val_main_v23 (F := Ideal) x3))
      (val_main_v26 (F := Ideal) x1))

theorem mid_eq (x0 : RArr) (x1 : (⟨S1048576, .f32⟩ : BufTy).Contents (Elt Ideal))
    (x2 x3 : (⟨S1048576, .i32⟩ : BufTy).Contents (Elt Ideal)) :
    val_main_v30 (F := Ideal) x0 x1 x2 x3 = mid (val_main_v17 (F := Ideal) x0) x1 x2 x3 := rfl

/-! ## The exponential map and the projection: from the scatter's result to the end -/

section Tail

variable (x0 : RArr) (x1 : (⟨S1048576, .f32⟩ : BufTy).Contents (Elt Ideal))
  (x2 x3 : (⟨S1048576, .i32⟩ : BufTy).Contents (Elt Ideal))

/-- The mapped row's entry: `tanh s · u / s` with `u` the scatter's result. -/
theorem exp_apply (r : Fin 65536) (k : Fin 64) :
    val_main_v42 (F := Ideal) x0 x1 x2 x3 (ix2 r k) = expEntry (rowOf (val_main_v30 (F := Ideal) x0 x1 x2 x3) r) k := by
  rw [val_main_v42_apply, val_main_v38_apply, val_main_v37_apply, val_main_v36_apply, val_main_v41_apply]
  rw [show idx_main_v37 (ix2 r k) = ix2 r (0 : Fin 1) from idx_col r k,
    show idx_main_v41 (ix2 r k) = ix2 r (0 : Fin 1) from idx_col r k]
  rw [show val_main_v35 (F := Ideal) x0 x1 x2 x3 = val_main_v4 (F := Ideal) (val_main_v30 (F := Ideal) x0 x1 x2 x3) from rfl,
    show val_main_v40 (F := Ideal) x0 x1 x2 x3 = val_main_v4 (F := Ideal) (val_main_v30 (F := Ideal) x0 x1 x2 x3) from rfl,
    scale_apply]
  unfold expEntry rowOf
  simp only [Ideal.hostDivf_def, Ideal.mulf_def, Ideal.hostUnary_tanh_def]

/-- The reference's result at `(r, q)`: the exponential map followed by the projection of row `r` of the
    scatter's result. -/
theorem expProj_apply (r : Fin 65536) (q : Fin 64) :
    val_main_v51 (F := Ideal) x0 x1 x2 x3 (ix2 r q) = expProj (rowOf (val_main_v30 (F := Ideal) x0 x1 x2 x3) r) q := by
  rw [val_main_v51_apply, val_main_v50_apply, val_main_v49_apply, val_main_v48_apply, val_main_cst_12_apply,
    val_main_v47_apply, val_main_v46_apply, val_main_cst_11_apply]
  rw [show idx_main_v50 (ix2 r q) = ix2 r (0 : Fin 1) from idx_col r q]
  rw [show val_main_v45 (F := Ideal) x0 x1 x2 x3 = val_main_v2 (F := Ideal) (val_main_v42 (F := Ideal) x0 x1 x2 x3) from rfl,
    normClamp_apply, exp_apply]
  unfold expProj
  refine congrArg (fun f => expEntry (rowOf (val_main_v30 (F := Ideal) x0 x1 x2 x3) r) q
    * projFactor (sumSq f)) ?_
  funext k
  exact exp_apply x0 x1 x2 x3 r k

/-- So the reference's result is the exponential map and projection of every row of the middle applied to the
    logarithmic map of every row of the input. -/
theorem result_eq : val_main_v51 (F := Ideal) x0 x1 x2 x3 = expArr (mid (logArr x0) x1 x2 x3) := by
  refine arr_ext fun r q => (expProj_apply x0 x1 x2 x3 r q).trans ?_
  rw [mid_eq, log_eq]
  exact (expArr_ix2 _ r q).symm

end Tail

end Cert.Hyp.RefRows

end
-- ==== Proof.Bridge.lean ====
/-
  The two programs end with one result.

  Both programs apply the same host stretch — a gather of rows at the column indices, a multiplication by the edge
  weights, an accumulating scatter at the row indices into zeros — to the array of logarithmic maps; written once
  over each program's own shape names it is one function. So the kernel program's result (the exponential map and
  projection of every row of that function of the logarithmic map of every row of the first argument) is, term for
  term, what the reference's run was read as.
-/
import proofs.«150140_j31413390803679_1_alg».proof.Proof.KernelRun
import proofs.«150140_j31413390803679_1_alg».proof.Proof.RefRows

noncomputable section

namespace Cert.Hyp

open Idealize.ShloMosaic

/-- The host stretch between the kernel program's regions is the reference's. -/
theorem mid_same (xt : KernelRun.KArr) (x1 : (⟨Cert.KernelIdeal.S1048576, .f32⟩ : BufTy).Contents (Elt Ideal))
    (x2 x3 : (⟨Cert.KernelIdeal.S1048576, .i32⟩ : BufTy).Contents (Elt Ideal)) :
    KernelRun.mid xt x1 x2 x3 = RefRows.mid xt x1 x2 x3 := rfl

end Cert.Hyp

end
-- ==== Proof.lean ====
/-
  Hyperbolic aggregation on the Poincaré ball, the kernel program against its reference, on the extended reals.

  Both programs map every row of the input to the tangent space at the origin (the logarithmic map), aggregate
  neighbouring rows there (a gather, a multiplication by the edge weights, an accumulating scatter), and map the
  result back to the ball (the exponential map followed by the projection onto a slightly smaller ball). The kernel
  program does the two row maps block by block in two device regions; the reference does everything with whole-array
  operations. They differ in one place only: the logarithmic map divides the factor `artanh s` by the scale `s`
  before or after multiplying the row's entry. The scale is at least a positive constant, so it is never zero;
  division by a nonzero extended real is multiplication by its inverse, and multiplication on the extended reals is
  commutative and associative, so the two arrangements agree on every input, finite or not. The precondition is not
  used.

  The three frames are the generated ones (the reference's is its generated run with the result dropped); no operation
  was rewritten by the idealization, so `preserves` is trivial.
-/
import proofs.«150140_j31413390803679_1_alg».proof.Defs
import proofs.«150140_j31413390803679_1_alg».proof.Proof.Gen.Kernel
import proofs.«150140_j31413390803679_1_alg».proof.Proof.Gen.Kernel.Skeleton
import proofs.«150140_j31413390803679_1_alg».proof.Proof.Gen.Kernel.Launch
import proofs.«150140_j31413390803679_1_alg».proof.Proof.Gen.Kernel.Points
import proofs.«150140_j31413390803679_1_alg».proof.Proof.Gen.Kernel.Frame
import proofs.«150140_j31413390803679_1_alg».proof.Proof.Gen.KernelIdeal
import proofs.«150140_j31413390803679_1_alg».proof.Proof.Gen.KernelIdeal.Skeleton
import proofs.«150140_j31413390803679_1_alg».proof.Proof.Gen.KernelIdeal.Launch
import proofs.«150140_j31413390803679_1_alg».proof.Proof.Gen.KernelIdeal.Points
import proofs.«150140_j31413390803679_1_alg».proof.Proof.Gen.KernelIdeal.Frame
import proofs.«150140_j31413390803679_1_alg».proof.Proof.Gen.ReferenceIdeal
import proofs.«150140_j31413390803679_1_alg».proof.Proof.Gen.Pre_finite_inputs
import proofs.«150140_j31413390803679_1_alg».proof.Proof.Gen.ReferenceIdeal.Run
import proofs.«150140_j31413390803679_1_alg».proof.Proof.Gen.ReferenceIdeal.Read
import proofs.«150140_j31413390803679_1_alg».proof.Proof.Bridge
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end, with one result array: the kernel program's run
    read block by block and the reference's run read entry by entry are the same function of the arguments. -/
theorem algebraic : Cert.algebraic_KernelIdeal_ReferenceIdeal := by
  intro m ρ m' ρ' _ hagree
  refine ⟨fun c => Cert.Hyp.KernelRun.result m c, Cert.Hyp.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, Cert.Hyp.RefRows.result_eq, (hagree c).1, (hagree c).2.1,
    (hagree c).2.2.1, (hagree c).2.2.2]
  unfold Cert.Hyp.KernelRun.result
  exact congrArg Cert.Hyp.expArr (Cert.Hyp.mid_same _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
